-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x8192 : Shape := ⟨2, ![4, 8192]⟩
abbrev S16x4x8192 : Shape := ⟨3, ![16, 4, 8192]⟩
abbrev S4x512 : Shape := ⟨2, ![4, 512]⟩
abbrev S4x1024 : Shape := ⟨2, ![4, 1024]⟩
abbrev S1x4x1024 : Shape := ⟨3, ![1, 4, 1024]⟩
abbrev S4x512x1 : Shape := ⟨3, ![4, 512, 1]⟩
abbrev S4x1x1024 : Shape := ⟨3, ![4, 1, 1024]⟩
abbrev S4x512x1024 : Shape := ⟨3, ![4, 512, 1024]⟩
abbrev S_ : Shape := ⟨0, ![]⟩

abbrev nBuf : Space → Nat
  | .hbm => 31
  | .vmem => 17
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S4x8192x1, .f32⟩
  | .hbm, ⟨9, _⟩ => ⟨S4x8192, .f32⟩
  | .hbm, ⟨10, _⟩ => ⟨S4x8192x1, .f32⟩
  | .hbm, ⟨11, _⟩ => ⟨S4x8192, .f32⟩
  | .hbm, ⟨12, _⟩ => ⟨S4x8192x1, .f32⟩
  | .hbm, ⟨13, _⟩ => ⟨S4x8192, .f32⟩
  | .hbm, ⟨14, _⟩ => ⟨S4x8192, .f32⟩
  | .hbm, ⟨15, _⟩ => ⟨S16x4x8192, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x512, .f32⟩
  | .local _ .vmem, ⟨13, _⟩ => ⟨S4x512, .f32⟩
  | .local _ .vmem, ⟨14, _⟩ => ⟨S1x4x1024, .f32⟩
  | .local _ .vmem, ⟨15, _⟩ => ⟨S1x4x1024, .f32⟩
  | .local _ .vmem, ⟨16, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S4x8192x3_S4x8192x1_0_0_0 : S4x8192x3.Slices ![0, 0, 0] S4x8192x1
  shapeCasts_S4x8192x1_S4x8192 : S4x8192x1.ShapeCasts S4x8192
  slices_S4x8192x3_S4x8192x1_0_0_1 : S4x8192x3.Slices ![0, 0, 1] S4x8192x1
  slices_S4x8192x3_S4x8192x1_0_0_2 : S4x8192x3.Slices ![0, 0, 2] S4x8192x1
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  reduces_S4x512x1024_S4x1024 : S4x512x1024.Reduces [1] S4x1024
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  shapeCasts_S4x1024_S1x4x1024 : S4x1024.ShapeCasts S1x4x1024
  reducesTo_S16x4x8192_S4x8192_d0 : S16x4x8192.ReducesTo [0] S4x8192
  h_S_ : 0 < S_.numel
  bcast_S_S4x8192 : S_.BroadcastsInDim S4x8192 (![] : Fin 0 → Fin S4x8192.rank)
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512.size a ≤ S4x8192.size a
  hwx0_0 : ∀ i : grid0.Coords, EltTy.bits .f32 = 32 ∨ (Rect.block (s := S4x8192) S4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x8192.size a
  hwx0_1 : ∀ i : grid0.Coords, EltTy.bits .f32 = 32 ∨ (Rect.block (s := S4x8192) S4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x8192.size a
  hwx0_3 : ∀ i : grid0.Coords, EltTy.bits .f32 = 32 ∨ (Rect.block (s := S4x8192) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x8192.size a
  hwx0_4 : ∀ i : grid0.Coords, EltTy.bits .f32 = 32 ∨ (Rect.block (s := S4x8192) S4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x8192.size a
  hwx0_5 : ∀ i : grid0.Coords, EltTy.bits .f32 = 32 ∨ (Rect.block (s := S4x8192) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x8192.size a
  hwx0_6 : ∀ i : grid0.Coords, EltTy.bits .f32 = 32 ∨ (Rect.block (s := S4x8192) S4x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4x1024.size a ≤ S16x4x8192.size a
  hwx0_7 : ∀ i : grid0.Coords, EltTy.bits .f32 = 32 ∨ (Rect.block (s := S16x4x8192) S1x4x1024.size (cc0_transform_7 i) (hinb0_7 i)).WholeWords (EltTy.packing .f32)

variable [Facts₀]

abbrev win0_0 : Pipeline.Window sig grid0 :=
  Pipeline.Window.ofSpec (Memref.whole main_v1) S4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S4x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x4x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun _ => false | ⟨_ + 8, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The two nearest-neighbour distance arrays of a Chamfer distance, as functions of the two point clouds,
  index by index on the extended reals.

  For clouds `A B : [4, 8192, 3]` the squared distance between point `n` of `A` and point `m` of `B` in batch `b`
  is written twice: `sqd`, the sum over the three coordinates of the squared differences, and `sqe`, the expansion
  `|a|² + |b|² − 2 a·b`. `nn x = √(max x 0)` turns a squared distance into a distance. The nearest distance from a
  point of `A` is the minimum over `m` (`near1`), from a point of `B` the minimum over `n` (`near2`); a minimum is
  the fold of `min` from `⊤` over the whole coordinate range. The same minima are also written the way a tiled
  computation meets them: over the 8192 columns as eight runs of 1024 taken one after the other (`rowBlk`, `rowAcc`),
  and over the 8192 rows as sixteen runs of 512 (`colBlk`, `colAll`).
-/
import Idealize.ShloMosaic.PureOps.Ideal
import Idealize.ShloMosaic.Lib.ValueIdx

noncomputable section

namespace Chamfer

open Idealize.ShloMosaic Idealize.ShloMosaic.ValueIdx

/-- A point cloud: four batches of 8192 points of three coordinates. -/
abbrev Pts : Type := (⟨3, ![4, 8192, 3]⟩ : Shape).Idx → EReal

/-- A table of one extended real per pair (point of the first cloud, point of the second) in each batch. -/
abbrev Pair : Type := Fin 4 → Fin 8192 → Fin 8192 → EReal

/-- Coordinate `d` of point `n` in batch `b`. -/
abbrev crd (A : Pts) (b : Fin 4) (n : Fin 8192) (d : Fin 3) : EReal := A (ix3 b n d)

/-- The squared distance as the sum of the squared coordinate differences, x then y then z. -/
def sqd (A B : Pts) : Pair := fun b n m =>
  (crd A b n 0 - crd B b m 0) * (crd A b n 0 - crd B b m 0)
    + (crd A b n 1 - crd B b m 1) * (crd A b n 1 - crd B b m 1)
    + (crd A b n 2 - crd B b m 2) * (crd A b n 2 - crd B b m 2)

/-- The squared distance expanded: `(0 + Σ a²) + (0 + Σ b²) − 2 · Σ a b`. -/
def sqe (A B : Pts) : Pair := fun b n m =>
  ((0 + ∑ d : Fin 3, crd A b n d * crd A b n d) + (0 + ∑ d : Fin 3, crd B b m d * crd B b m d))
    - 2 * ∑ d : Fin 3, crd A b n d * crd B b m d

/-- From a squared distance to a distance: the square root of its nonnegative part. -/
def nn (x : EReal) : EReal := Ideal.sqrt (max x 0)

/-- The least entry of a row: over every point of the second cloud. -/
def near1 (D : Pair) (b : Fin 4) (n : Fin 8192) : EReal :=
  (Finset.univ : Finset (Fin 8192)).fold min ⊤ (fun m => D b n m)

/-- The least entry of a column: over every point of the first cloud. -/
def near2 (D : Pair) (b : Fin 4) (m : Fin 8192) : EReal :=
  (Finset.univ : Finset (Fin 8192)).fold min ⊤ (fun n => D b n m)

/-- Column `k` of the `j`-th run of 1024 columns (for `j < 8` this is column `1024 j + k`). -/
def colAt (j : ℕ) (k : Fin 1024) : Fin 8192 := ⟨(1024 * j + k.val) % 8192, Nat.mod_lt _ (by norm_num)⟩

/-- Row `r` of the `i`-th run of 512 rows (for `i < 16` this is row `512 i + r`). -/
def rowAt (i : ℕ) (r : Fin 512) : Fin 8192 := ⟨(512 * i + r.val) % 8192, Nat.mod_lt _ (by norm_num)⟩

/-- The least entry of row `n` within the `j`-th run of columns. -/
def rowBlk (D : Pair) (b : Fin 4) (n : Fin 8192) (j : ℕ) : EReal :=
  (Finset.univ : Finset (Fin 1024)).fold min ⊤ (fun k => D b n (colAt j k))

/-- The running least entry of row `n` after the runs `0, …, j` of columns, taken in order starting from `⊤`. -/
def rowAcc (D : Pair) (b : Fin 4) (n : Fin 8192) : ℕ → EReal
  | 0 => min ⊤ (rowBlk D b n 0)
  | j + 1 => min (rowAcc D b n j) (rowBlk D b n (j + 1))

/-- The least entry of column `m` within the `i`-th run of rows. -/
def colBlk (D : Pair) (b : Fin 4) (m : Fin 8192) (i : ℕ) : EReal :=
  (Finset.univ : Finset (Fin 512)).fold min ⊤ (fun r => D b (rowAt i r) m)

/-- The least of the sixteen run minima of column `m`. -/
def colAll (D : Pair) (b : Fin 4) (m : Fin 8192) : EReal :=
  (Finset.univ : Finset (Fin 16)).fold min ⊤ (fun i => colBlk D b m i.val)

/-- One extended real per point: a `[4, 8192]` table. -/
abbrev Mat : Type := (⟨2, ![4, 8192]⟩ : Shape).Idx → EReal

/-- The Chamfer distance from the two tables of nearest distances: each table's total (taken from the f32 zero) over
    32768, and the two means added. -/
def closing (u v : Mat) : EReal :=
  FloatOps.addf (F := Ideal) (φ := .f32)
    (FloatOps.hostDivf (F := Ideal) (φ := .f32) (FloatOps.ofBits (F := Ideal) .f32 0x00000000#32 + ∑ j, u j)
      (FloatOps.ofBits (F := Ideal) .f32 0x47000000#32))
    (FloatOps.hostDivf (F := Ideal) (φ := .f32) (FloatOps.ofBits (F := Ideal) .f32 0x00000000#32 + ∑ j, v j)
      (FloatOps.ofBits (F := Ideal) .f32 0x47000000#32))

/-- The first table as the tiled computation forms it: the distance from the running row minimum after all eight runs. -/
def tiled1 (A B : Pts) : Mat := fun i => nn (rowAcc (sqd A B) (i 0) (i 1) 7)

/-- The second table as the tiled computation forms it: the distance from the least of the sixteen run minima. -/
def tiled2 (A B : Pts) : Mat := fun i => nn (colAll (sqd A B) (i 0) (i 1))

/-- The first table as the plain computation forms it: the least distance along a row of the expanded form. -/
def plain1 (A B : Pts) : Mat := fun i => near1 (fun b n m => nn (sqe A B b n m)) (i 0) (i 1)

/-- The second table as the plain computation forms it: the least distance along a column of the expanded form. -/
def plain2 (A B : Pts) : Mat := fun i => near2 (fun b n m => nn (sqe A B b n m)) (i 0) (i 1)

/-- Every coordinate of the cloud is a real number. -/
def Real' (A : Pts) : Prop := ∀ i, ∃ r : ℝ, A i = (r : EReal)

end Chamfer

end
-- ==== Proof.MinAlgebra.lean ====
/-
  The tiled and the plain spellings of the two nearest-distance tables agree, for clouds with real coordinates.

  Three facts on the extended reals carry it:
  * x ↦ √(max x 0) is monotone and sends ⊤ to ⊤, so it passes through a minimum taken from ⊤;
  * a minimum over 8192 entries may be taken as eight runs of 1024 (or sixteen runs of 512), since both sides have
    the same lower bounds;
  * for real coordinates, Σ (a − b)² = |a|² + |b|² − 2 a·b.
-/
import proofs.«155883_j16003048145308_2_alg».proof.Proof.Spec

noncomputable section

namespace Chamfer

open Idealize.ShloMosaic Idealize.ShloMosaic.ValueIdx

/-! ### The square root of the nonnegative part passes through a minimum -/

/-- On the nonnegative extended reals the square root is monotone. -/
theorem sqrt_le_sqrt_of_nonneg {x y : EReal} (hx : 0 ≤ x) (hxy : x ≤ y) : Ideal.sqrt x ≤ Ideal.sqrt y := by
  induction x using EReal.rec with
  | bot => exact absurd hx (by simp)
  | top =>
    have hy : y = ⊤ := top_le_iff.mp hxy
    subst hy
    exact le_rfl
  | coe a =>
    induction y using EReal.rec with
    | bot => exact absurd hxy (by simp)
    | top => rw [Ideal.sqrt_top]; exact le_top
    | coe c =>
      have ha : 0 ≤ a := by exact_mod_cast hx
      have hac : a ≤ c := by exact_mod_cast hxy
      have hc : 0 ≤ c := ha.trans hac
      rw [Ideal.sqrt_coe, Ideal.sqrt_coe, if_neg (not_lt.mpr ha), if_neg (not_lt.mpr hc)]
      exact_mod_cast Real.sqrt_le_sqrt hac

/-- max x 0 is never negative, so x ↦ √(max x 0) is monotone everywhere. -/
theorem nn_mono : Monotone nn := by
  intro x y hxy
  unfold nn
  exact sqrt_le_sqrt_of_nonneg (le_max_right _ _) (max_le_max hxy le_rfl)

theorem nn_top : nn ⊤ = ⊤ := by
  unfold nn
  rw [max_eq_left le_top, Ideal.sqrt_top]

/-- A monotone map on a linear order preserves min; with ⊤ ↦ ⊤ it therefore moves through a min-fold from ⊤. -/
theorem nn_fold_min {ι : Type*} (s : Finset ι) (f : ι → EReal) :
    nn (s.fold min ⊤ f) = s.fold min ⊤ (fun x => nn (f x)) := by
  have h := Finset.fold_hom (op := min) (op' := min) (s := s) (b := (⊤ : EReal)) (f := f) (m := nn)
    (fun _ _ => nn_mono.map_min)
  rw [nn_top] at h
  exact h.symm

/-! ### Regrouping a minimum into runs -/

theorem le_rowBlk_iff (D : Pair) (b : Fin 4) (n : Fin 8192) (j : ℕ) (c : EReal) :
    c ≤ rowBlk D b n j ↔ ∀ k : Fin 1024, c ≤ D b n (colAt j k) := by
  unfold rowBlk
  rw [Finset.le_fold_min]
  simp

theorem le_colBlk_iff (D : Pair) (b : Fin 4) (m : Fin 8192) (i : ℕ) (c : EReal) :
    c ≤ colBlk D b m i ↔ ∀ r : Fin 512, c ≤ D b (rowAt i r) m := by
  unfold colBlk
  rw [Finset.le_fold_min]
  simp

/-- The lower bounds of the running minimum after the runs 0, …, J are the common lower bounds of those runs' entries. -/
theorem le_rowAcc_iff (D : Pair) (b : Fin 4) (n : Fin 8192) (c : EReal) :
    ∀ J : ℕ, c ≤ rowAcc D b n J ↔ ∀ j, j ≤ J → ∀ k : Fin 1024, c ≤ D b n (colAt j k)
  | 0 => by
    rw [rowAcc, le_min_iff, le_rowBlk_iff]
    constructor
    · rintro ⟨_, h⟩ j hj k
      obtain rfl : j = 0 := Nat.le_zero.mp hj
      exact h k
    · intro h
      exact ⟨le_top, h 0 le_rfl⟩
  | J + 1 => by
    rw [rowAcc, le_min_iff, le_rowAcc_iff D b n c J, le_rowBlk_iff]
    constructor
    · rintro ⟨h1, h2⟩ j hj k
      rcases Nat.lt_or_eq_of_le hj with h | h
      · exact h1 j (Nat.lt_succ_iff.mp h) k
      · subst h
        exact h2 k
    · intro h
      exact ⟨fun j hj k => h j (Nat.le_succ_of_le hj) k, h (J + 1) le_rfl⟩

/-- Every column is column m % 1024 of run m / 1024. -/
theorem colAt_div_mod (m : Fin 8192) :
    colAt (m.val / 1024) ⟨m.val % 1024, Nat.mod_lt _ (by norm_num)⟩ = m := by
  apply Fin.ext
  simp only [colAt]
  have := m.isLt
  omega

/-- Every row is row n % 512 of run n / 512. -/
theorem rowAt_div_mod (n : Fin 8192) :
    rowAt (n.val / 512) ⟨n.val % 512, Nat.mod_lt _ (by norm_num)⟩ = n := by
  apply Fin.ext
  simp only [rowAt]
  have := n.isLt
  omega

theorem rowAcc_eq_near1 (D : Pair) (b : Fin 4) (n : Fin 8192) : rowAcc D b n 7 = near1 D b n := by
  apply eq_of_forall_le_iff
  intro c
  rw [le_rowAcc_iff]
  unfold near1
  rw [Finset.le_fold_min]
  constructor
  · intro h
    refine ⟨le_top, fun m _ => ?_⟩
    have hm := h (m.val / 1024) (by have := m.isLt; omega) ⟨m.val % 1024, Nat.mod_lt _ (by norm_num)⟩
    rwa [colAt_div_mod] at hm
  · rintro ⟨_, h⟩ j _ k
    exact h _ (Finset.mem_univ _)

theorem colAll_eq_near2 (D : Pair) (b : Fin 4) (m : Fin 8192) : colAll D b m = near2 D b m := by
  apply eq_of_forall_le_iff
  intro c
  unfold colAll near2
  rw [Finset.le_fold_min, Finset.le_fold_min]
  constructor
  · rintro ⟨_, h⟩
    refine ⟨le_top, fun n _ => ?_⟩
    have h1 := h ⟨n.val / 512, by have := n.isLt; omega⟩ (Finset.mem_univ _)
    rw [le_colBlk_iff] at h1
    have h2 := h1 ⟨n.val % 512, Nat.mod_lt _ (by norm_num)⟩
    rwa [rowAt_div_mod] at h2
  · rintro ⟨_, h⟩
    refine ⟨le_top, fun i _ => ?_⟩
    rw [le_colBlk_iff]
    intro r
    exact h _ (Finset.mem_univ _)

/-! ### The two spellings of the squared distance -/

/-- With real coordinates nothing is infinite, and the identity Σ (a − b)² = Σ a² + Σ b² − 2 Σ a b of the reals applies. -/
theorem sqd_eq_sqe (A B : Pts) (hA : Real' A) (hB : Real' B) (b : Fin 4) (n m : Fin 8192) :
    sqd A B b n m = sqe A B b n m := by
  obtain ⟨a0, ha0⟩ := hA (ix3 b n (0 : Fin 3))
  obtain ⟨a1, ha1⟩ := hA (ix3 b n (1 : Fin 3))
  obtain ⟨a2, ha2⟩ := hA (ix3 b n (2 : Fin 3))
  obtain ⟨b0, hb0⟩ := hB (ix3 b m (0 : Fin 3))
  obtain ⟨b1, hb1⟩ := hB (ix3 b m (1 : Fin 3))
  obtain ⟨b2, hb2⟩ := hB (ix3 b m (2 : Fin 3))
  unfold sqd sqe
  rw [Fin.sum_univ_three, Fin.sum_univ_three, Fin.sum_univ_three]
  simp only [crd]
  rw [ha0, ha1, ha2, hb0, hb1, hb2, zero_add, zero_add]
  have h2 : (2 : EReal) = ((2 : ℝ) : EReal) := by norm_cast
  rw [h2]
  norm_cast
  ring

/-! ### The two tables -/

/-- Entry by entry the distance taken from either spelling of the squared distance is the same. -/
theorem nn_sqd_eq_nn_sqe (A B : Pts) (hA : Real' A) (hB : Real' B) :
    (fun b n m => nn (sqd A B b n m) : Pair) = fun b n m => nn (sqe A B b n m) := by
  funext b n m
  rw [sqd_eq_sqe A B hA hB]

theorem tiled1_eq_plain1 (A B : Pts) (hA : Real' A) (hB : Real' B) : tiled1 A B = plain1 A B := by
  funext i
  calc tiled1 A B i
      = nn (rowAcc (sqd A B) (i 0) (i 1) 7) := rfl
    _ = nn (near1 (sqd A B) (i 0) (i 1)) := congrArg nn (rowAcc_eq_near1 _ _ _)
    _ = near1 (fun b n m => nn (sqd A B b n m)) (i 0) (i 1) := nn_fold_min _ _
    _ = near1 (fun b n m => nn (sqe A B b n m)) (i 0) (i 1) :=
        congrArg (fun D : Pair => near1 D (i 0) (i 1)) (nn_sqd_eq_nn_sqe A B hA hB)
    _ = plain1 A B i := rfl

theorem tiled2_eq_plain2 (A B : Pts) (hA : Real' A) (hB : Real' B) : tiled2 A B = plain2 A B := by
  funext i
  calc tiled2 A B i
      = nn (colAll (sqd A B) (i 0) (i 1)) := rfl
    _ = nn (near2 (sqd A B) (i 0) (i 1)) := congrArg nn (colAll_eq_near2 _ _ _)
    _ = near2 (fun b n m => nn (sqd A B b n m)) (i 0) (i 1) := nn_fold_min _ _
    _ = near2 (fun b n m => nn (sqe A B b n m)) (i 0) (i 1) :=
        congrArg (fun D : Pair => near2 D (i 0) (i 1)) (nn_sqd_eq_nn_sqe A B hA hB)
    _ = plain2 A B i := rfl

end Chamfer

end
-- ==== Proof.RealInputs.lean ====
/-
  From the precondition to real coordinates.

  The precondition is `all (|A| < +∞) ∧ all (|B| < +∞)`: each `all` is a reduction by `and` over every axis, from 1, into
  one word, and the two words are joined by `and`. When the joined word is 1 both are 1; a reduction by `and` that is 1
  met a 1 at every index; and the word at an index is the comparison `max x (-x) < +∞` of that coordinate. On the
  extended reals `max x (-x) < ⊤` excludes `x = ⊤` (then `max x (-x) = ⊤`) and `x = ⊥` (then `-x = ⊤`), so `x` is a real.
-/
import proofs.«155883_j16003048145308_2_alg».proof.Pre_finite_inputs
import proofs.«155883_j16003048145308_2_alg».proof.Proof.Spec
import Idealize.ShloMosaic.Lib.ReduceAll
import Idealize.ShloMosaic.Lib.ValueIdx
import Idealize.ShloMosaic.PureOps.Ideal

noncomputable section

namespace Chamfer

open Idealize.ShloMosaic Idealize.ShloMosaic.ValueIdx

/-- The result of a reduction over every axis has exactly one index. -/
instance : Subsingleton Cert.Pre_finite_inputs.S_.Idx := ⟨fun a b => funext fun d => d.elim0⟩

/-- The pattern of `+inf` denotes `⊤`. -/
theorem ofBits_inf : Ideal.ofBits .f32 0x7F800000#32 = ⊤ := by
  simp [Ideal.ofBits, Ideal.ieee]

/-- A coordinate that passes `|x| < +∞` is a real number: at `⊥` the negation is `⊤`, at `⊤` the value itself is, and in both
    cases `max x (-x) = ⊤` is not below `⊤`. -/
theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

/-- If every coordinate of both clouds passes `|x| < +∞`, every coordinate of both clouds is a real number. -/
theorem real_of_pre [Cert.Pre_finite_inputs.Facts] (A B : Pts)
    (h : Cert.Pre_finite_inputs.fn (F := Ideal) A B = fun _ => 1#1) : Real' A ∧ Real' B := by
  have h0 := congrFun h ValueIdx.ix0
  dsimp only [Cert.Pre_finite_inputs.fn] at h0
  obtain ⟨hA, hB⟩ := IntOp.andi_eq_one.1 h0
  refine ⟨fun i => ?_, fun i => ?_⟩
  · exact real_of_abs_lt_inf _ (Host.reduce_andi_all _ _ _ _ _ hA i)
  · exact real_of_abs_lt_inf _ (Host.reduce_andi_all _ _ _ _ _ hB i)

end Chamfer

end
-- ==== Proof.RefStages.lean ====
/-
  The reference computation of the Chamfer distance, read stage by stage at the extended reals.

  The program squares and sums the coordinates of each cloud, takes the batched inner products, forms
  |a|² + |b|² − 2 a·b for every pair of points, clamps at zero, takes the square root, takes the minimum of the
  resulting table along each of its two point axes starting from +∞, averages each table of minima over its
  32768 entries and adds the two averages. Each of these stages is identified here with the corresponding plain
  mathematical expression, and the final scalar with the closing formula applied to the two tables of nearest
  distances.
-/
import proofs.«155883_j16003048145308_2_alg».proof.Proof.Gen.ReferenceIdeal.Read
import proofs.«155883_j16003048145308_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The f32 word of the number two is the extended real 2. -/
theorem ofBits_two_f32 : Ideal.ofBits .f32 0x40000000#32 = 2 := by
  simp [Ideal.ofBits, Ideal.ieee, -EReal.coe_mul]
  norm_num
  rfl

/-- The f32 word of +∞ is the top element. -/
theorem ofBits_inf_f32 : Ideal.ofBits .f32 0x7F800000#32 = ⊤ := by
  simp [Ideal.ofBits, Ideal.ieee]

/-- The table of pair distances: at batch b, point n of the first cloud and point m of the second, the
    program's value is the square root of the nonnegative part of the expanded squared distance. -/
theorem pair_at (A B : (⟨S4x8192x3, .f32⟩ : BufTy).Contents (Elt Ideal)) (b : Fin 4) (n m : Fin 8192) :
    val_main_v15 (F := Ideal) A B (ix3 b n m) = Chamfer.nn (Chamfer.sqe A B b n m) := by
  rw [val_main_v15_apply, val_main_v14_apply, val_main_v13_apply, val_main_cst_2_apply, val_main_v12_apply,
    val_main_v11_apply, val_main_v10_apply, val_main_cst_1_apply, val_main_v9_apply, val_main_v8_apply,
    val_main_v7_apply, val_main_v6_apply, val_main_v5_apply, val_main_v4_apply, val_main_v3_apply,
    val_main_v1_apply, val_main_cst_apply, val_main_cst_0_apply]
  simp only [val_main_v0_apply, val_main_v2_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  simp only [e1, e3, el, er]
  unfold Chamfer.nn Chamfer.sqe Chamfer.crd
  simp only [Ideal.mulf_def, Ideal.addf_def, Ideal.subf_def, Ideal.maximumf_def, Ideal.hostUnary_sqrt_def,
    Ideal.ofBits_def, Ideal.ofBits_zero_f32, ofBits_two_f32]

/-- The minimum along the second point axis: at batch b and point n of the first cloud the program's value is
    the least pair distance over every point m of the second cloud, folded from +∞. -/
theorem row_min_at (A B : (⟨S4x8192x3, .f32⟩ : BufTy).Contents (Elt Ideal)) (b : Fin 4) (n : Fin 8192) :
    val_main_v16 (F := Ideal) A B (ix2 b n)
      = Chamfer.near1 (fun b n m => Chamfer.nn (Chamfer.sqe A B b n m)) b n := by
  have h : S4x8192x8192.Reduces [2] S4x8192 := by decide
  unfold val_main_v16
  rw [Host.reduce_eq_fold_single FloatOps.minimumf _ _ reducesTo_S4x8192x8192_S4x8192_d2 h h_S_ (ix2 b n),
    val_main_cst_3_apply, Ideal.ofBits_def, ofBits_inf_f32]
  unfold Chamfer.near1
  refine Finset.fold_congr fun (m : Fin 8192) _ => ?_
  have hl : h.lift (ix2 b n) m = ix3 b n m :=
    funext fun a => Fin.ext (by match a with | ⟨0, _⟩ => rfl | ⟨1, _⟩ => rfl | ⟨2, _⟩ => rfl)
  show val_main_v15 (F := Ideal) A B (h.lift (ix2 b n) m) = _
  rw [hl]
  exact pair_at A B b n m

/-- The minimum along the first point axis: at batch b and point m of the second cloud the program's value is
    the least pair distance over every point n of the first cloud, folded from +∞. -/
theorem col_min_at (A B : (⟨S4x8192x3, .f32⟩ : BufTy).Contents (Elt Ideal)) (b : Fin 4) (m : Fin 8192) :
    val_main_v17 (F := Ideal) A B (ix2 b m)
      = Chamfer.near2 (fun b n m => Chamfer.nn (Chamfer.sqe A B b n m)) b m := by
  have h : S4x8192x8192.Reduces [1] S4x8192 := by decide
  unfold val_main_v17
  rw [Host.reduce_eq_fold_single FloatOps.minimumf _ _ reducesTo_S4x8192x8192_S4x8192_d1 h h_S_ (ix2 b m),
    val_main_cst_4_apply, Ideal.ofBits_def, ofBits_inf_f32]
  unfold Chamfer.near2
  refine Finset.fold_congr fun (n : Fin 8192) _ => ?_
  have hl : h.lift (ix2 b m) n = ix3 b n m :=
    funext fun a => Fin.ext (by match a with | ⟨0, _⟩ => rfl | ⟨1, _⟩ => rfl | ⟨2, _⟩ => rfl)
  show val_main_v15 (F := Ideal) A B (h.lift (ix2 b m) n) = _
  rw [hl]
  exact pair_at A B b n m

/-- The table of row minima is the first table of nearest distances of the plain form. -/
theorem row_min_eq (A B : (⟨S4x8192x3, .f32⟩ : BufTy).Contents (Elt Ideal)) :
    val_main_v16 (F := Ideal) A B = Chamfer.plain1 A B := by
  funext i
  obtain ⟨b, n, rfl⟩ : ∃ b n, i = ix2 b n := ⟨i 0, i 1, eq_ix2 i⟩
  exact row_min_at A B b n

/-- The table of column minima is the second table of nearest distances of the plain form. -/
theorem col_min_eq (A B : (⟨S4x8192x3, .f32⟩ : BufTy).Contents (Elt Ideal)) :
    val_main_v17 (F := Ideal) A B = Chamfer.plain2 A B := by
  funext i
  obtain ⟨b, m, rfl⟩ : ∃ b m, i = ix2 b m := ⟨i 0, i 1, eq_ix2 i⟩
  exact col_min_at A B b m

/-- The program's result: the closing formula (each table's total over 32768, the two means added) applied to
    the two tables of nearest distances of the plain form. -/
theorem result_eq (A B : (⟨S4x8192x3, .f32⟩ : BufTy).Contents (Elt Ideal)) :
    val_main_v22 (F := Ideal) A B = fun _ => Chamfer.closing (Chamfer.plain1 A B) (Chamfer.plain2 A B) := by
  funext i
  rw [val_main_v22_apply, val_main_v19_apply, val_main_v21_apply, val_main_v18_apply, val_main_v20_apply,
    val_main_cst_5_apply, val_main_cst_6_apply, val_main_cst_7_apply, val_main_cst_8_apply,
    row_min_eq, col_min_eq]
  rfl

end Cert.ReferenceIdeal.RefValue

end
-- ==== Proof.KernelCases.lean ====
import proofs.«155883_j16003048145308_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one step of the tiled computation leaves behind, as values.

  At a grid point the body sees three row blocks `x0 x1 x2` (the x, y, z coordinates of 512 points of the first
  cloud), three column blocks `x3 x4 x5` (1024 points of the second) and the running row minima `xs0` kept from the
  point before. It forms the 512 × 1024 table of squared distances (`k0_pay5`), writes the table's column minima to
  the second output (`k0_pay6`), and folds the table's row minima into the running minima (`k0_pay7`). In the first
  column run the running minima start from the +∞ splat (`k0_pay4`); in the last, the first output receives
  `√(max · 0)` of the finished running minima (`k0_pay3`). Each lemma below says so for one of the three cases.
-/
namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle column run: the running minima continue -/

theorem sout_B (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : ¬cond0_0 i) (hc1 : ¬cond0_1 i) (x0 x1 x2 : Vec F S4x512 .f32) (x3 x4 x5 : Vec F S4x1024 .f32) (xs0 : Vec F S4x512 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay1 (k0_pay7 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

theorem out7_B (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : ¬cond0_0 i) (hc1 : ¬cond0_1 i) (x0 x1 x2 : Vec F S4x512 .f32) (x3 x4 x5 : Vec F S4x1024 .f32) (xs0 : Vec F S4x512 .f32) :
    out0_B_7 c i arg2 harg2 arg3 harg3 arg4 harg4 arg5 harg5 arg6 harg6 arg7 harg7 arg8 harg8 arg9 harg9 arg10 harg10 hc0 hc1 x0 x1 x2 x3 x4 x5 xs0 = k0_pay2 (k0_pay6 x0 x1 x2 x3 x4 x5) := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

/-! ## The first column run: the running minima start from the +∞ splat -/

theorem sout_A (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : cond0_0 i) (hc1 : ¬cond0_1 i) (x0 x1 x2 : Vec F S4x512 .f32) (x3 x4 x5 : Vec F S4x1024 .f32) :
    sout0_A_0 c i arg2 harg2 arg3 harg3 arg4 harg4 arg5 harg5 arg6 harg6 arg7 harg7 arg8 harg8 arg9 harg9 arg10 harg10 hc0 hc1 x0 x1 x2 x3 x4 x5 = k0_pay1 (k0_pay7 x0 x1 x2 x3 x4 x5 k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S4x512) hz2]
  simp only [View.readCov_unit_zero (S := S4x512) _ hz2, View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

theorem out7_A (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : cond0_0 i) (hc1 : ¬cond0_1 i) (x0 x1 x2 : Vec F S4x512 .f32) (x3 x4 x5 : Vec F S4x1024 .f32) :
    out0_A_7 c i arg2 harg2 arg3 harg3 arg4 harg4 arg5 harg5 arg6 harg6 arg7 harg7 arg8 harg8 arg9 harg9 arg10 harg10 hc0 hc1 x0 x1 x2 x3 x4 x5 = k0_pay2 (k0_pay6 x0 x1 x2 x3 x4 x5) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

/-! ## The last column run: the first output receives the distances -/

theorem sout_C (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : ¬cond0_0 i) (hc1 : cond0_1 i) (x0 x1 x2 : Vec F S4x512 .f32) (x3 x4 x5 : Vec F S4x1024 .f32) (xs0 : Vec F S4x512 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay1 (k0_pay7 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

theorem out7_C (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : ¬cond0_0 i) (hc1 : cond0_1 i) (x0 x1 x2 : Vec F S4x512 .f32) (x3 x4 x5 : Vec F S4x1024 .f32) (xs0 : Vec F S4x512 .f32) :
    out0_C_7 c i arg2 harg2 arg3 harg3 arg4 harg4 arg5 harg5 arg6 harg6 arg7 harg7 arg8 harg8 arg9 harg9 arg10 harg10 hc0 hc1 x0 x1 x2 x3 x4 x5 xs0 = k0_pay2 (k0_pay6 x0 x1 x2 x3 x4 x5) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

theorem out6_C (c : Dev nD) (i : grid0.Coords) (arg2 : Memref sig .tc .vmem S4x512 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x1024 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x512 .f32) (harg8 : arg8.IsWhole) (arg9 : Memref sig .tc .vmem S1x4x1024 .f32) (harg9 : arg9.IsWhole) (arg10 : Memref sig .tc .vmem S4x512 .f32) (harg10 : arg10.IsWhole) (hc0 : ¬cond0_0 i) (hc1 : cond0_1 i) (x0 x1 x2 : Vec F S4x512 .f32) (x3 x4 x5 : Vec F S4x1024 .f32) (xs0 : Vec F S4x512 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay3 (k0_pay1 (k0_pay7 x0 x1 x2 x3 x4 x5 xs0)) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readCov_unit_zero (S := S4x512) _ hz2, View.readAt_eq_ld, harg2.read_unread, harg3.read_unread, harg4.read_unread, harg5.read_unread, harg6.read_unread, harg7.read_unread, harg8.read_unread, harg9.read_unread, harg10.read_unread, View.ld_unit_zero (S := S4x512) hz2, View.ld_unit_zero (S := S4x1024) hz2, View.ld_unit_zero (S := S1x4x1024) hz3]

end Cert.KernelIdeal.KValue

end
-- ==== Proof.LibUnitAxis.lean ====
/-
  Unit axes added by a shape cast or spread by a broadcast, read at an index — general in the extents and the
  element type.

  `jnp` code that compares every row with every other (`a[:, :, None] - b[:, None, :]`) or keeps a reduced axis
  (`keepdims=True`) prints as a shape cast that inserts an axis of extent one followed by a broadcast along it. Read
  at an index written by its coordinates:
    * `[a] → [a, 1]`:        entry `(i, 0)`    is the operand at `i`;
    * `[a, b] → [a, b, 1]`:  entry `(i, j, 0)` is the operand at `(i, j)`;
    * `[a, b] → [a, 1, b]`:  entry `(i, 0, j)` is the operand at `(i, j)`;
    * `[a, b, 1] → [a, b, c]` (broadcast): entry `(i, j, l)` is the operand at `(i, j, 0)`;
    * `[a, 1, c] → [a, b, c]` (broadcast): entry `(i, j, l)` is the operand at `(i, 0, l)`.
  The casts are row-major position arithmetic (`(i·b + j)·1 + 0 = i·b + j`); the broadcasts read coordinate `0` on an
  axis of extent one and the result's coordinate elsewhere.
-/
import Idealize.ShloMosaic.Lib.ValueIdx
import Idealize.ShloMosaic.Lib.Pipeline.Value
import Idealize.ShloMosaic.Lib.ValueLayout

noncomputable section

namespace Cert.LibUnitAxis

open Idealize.ShloMosaic Idealize.ShloMosaic.ValueIdx

/-! ## Shape casts that add a unit axis, read at an index -/

section Layout
variable {α : Type}

/-- A vector [a] cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Broadcasts along a unit axis, read at an index -/

/-- An [a, b, 1] array broadcast to [a, b, c] reads, at (i, j, l), the operand at (i, j, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, l), the operand at (i, 0, l). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Layout

end Cert.LibUnitAxis

end
-- ==== Proof.KernelPoints.lean ====
/-
  The body's arithmetic at one entry, on the extended reals.

  For a tile — row blocks `v3 v5 v7` (x, y, z of 512 points of the first cloud, per batch) against column blocks
  `v9 v11 v13` (1024 points of the second) — the table the body forms holds at `(b, r, k)` the sum over the three
  coordinates of the squared differences (`tile`). A unit axis added by a cast and spread by a broadcast reads the
  operand at the remaining coordinates, so the table's entry is that sum on the nose. The reduction along the columns
  is the fold of `min` from `⊤` over `k`, the one along the rows the fold over `r`; the running minimum takes the
  `min` with what was kept; the closing step is `√(max · 0)`.
-/
import proofs.«155883_j16003048145308_2_alg».proof.Proof.Gen.KernelIdeal.Skeleton
import proofs.«155883_j16003048145308_2_alg».proof.Proof.LibUnitAxis
import proofs.«155883_j16003048145308_2_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KernelIdeal.KPoint

open Cert.KernelIdeal Cert.KernelIdeal.Gen

/-- The f32 pattern of +∞ is the top of the extended reals. -/
theorem inf_eq_top : Ideal.ofBits .f32 0x7F800000#32 = ⊤ := by simp [Ideal.ofBits, Ideal.ieee]

/-- The squared distance between row `r` and column `k` of a tile, in batch `b`. -/
def tile (v3 v5 v7 : FVec Ideal S4x512 .f32) (v9 v11 v13 : FVec Ideal S4x1024 .f32) (b : Fin 4) (r : Fin 512)
    (k : Fin 1024) : EReal :=
  (v3 (ix2 b r) - v9 (ix2 b k)) * (v3 (ix2 b r) - v9 (ix2 b k))
    + (v5 (ix2 b r) - v11 (ix2 b k)) * (v5 (ix2 b r) - v11 (ix2 b k))
    + (v7 (ix2 b r) - v13 (ix2 b k)) * (v7 (ix2 b r) - v13 (ix2 b k))

/-- A row block spread along the columns reads, at `(b, r, k)`, the block at `(b, r)`. -/
theorem rowSpread (v : FVec Ideal S4x512 .f32) (b : Fin 4) (r : Fin 512) (k : Fin 1024) :
    broadcastTo S4x512x1024 (shapeCast S4x512x1 (shapeCast S4x512 v shapeCasts_S4x512_S4x512) shapeCasts_S4x512_S4x512x1)
      broadcasts_S4x512x1_S4x512x1024 (ix3 b r k) = v (ix2 b r) := by
  rw [Cert.LibUnitAxis.broadcastTo_ab1_abc_apply, Cert.LibUnitAxis.shapeCast_ab_ab1_apply, shapeCast_self]

/-- A column block spread along the rows reads, at `(b, r, k)`, the block at `(b, k)`. -/
theorem colSpread (v : FVec Ideal S4x1024 .f32) (b : Fin 4) (r : Fin 512) (k : Fin 1024) :
    broadcastTo S4x512x1024 (shapeCast S4x1x1024 (shapeCast S4x1024 v shapeCasts_S4x1024_S4x1024) shapeCasts_S4x1024_S4x1x1024)
      broadcasts_S4x1x1024_S4x512x1024 (ix3 b r k) = v (ix2 b k) := by
  rw [Cert.LibUnitAxis.broadcastTo_a1c_abc_apply, Cert.LibUnitAxis.shapeCast_ab_a1b_apply, shapeCast_self]

/-- The table the body forms is the table of squared distances. -/
theorem pay5_apply (v3 v5 v7 : FVec Ideal S4x512 .f32) (v9 v11 v13 : FVec Ideal S4x1024 .f32) (b : Fin 4) (r : Fin 512)
    (k : Fin 1024) : k0_pay5 (F := Ideal) v3 v5 v7 v9 v11 v13 (ix3 b r k) = tile v3 v5 v7 v9 v11 v13 b r k := by
  unfold k0_pay5 tile
  simp only [addf_apply, mulf_apply, subf_apply, rowSpread, colSpread]

/-- The minimum along the columns of a `[4, 512, 1024]` table: the fold of `min` from `⊤` over the column. -/
theorem minCols (src : FVec Ideal S4x512x1024 .f32) (hφ : FKind.Formats .f32)
    (hacc : (0x7F800000#32 : BitVec 32) = FKind.minimumf.neutral .f32 hφ) (b : Fin 4) (r : Fin 512) :
    multiReduction .minimumf [2] S4x512 src 0x7F800000#32 reduces_S4x512x1024_S4x512 hφ hacc (ix2 b r)
      = (Finset.univ : Finset (Fin 1024)).fold min ⊤ (fun k => src (ix3 b r k)) := by
  refine (multiReduction_minimumf_eq_fold src _ reduces_S4x512x1024_S4x512 hφ hacc (ix2 b r)).trans ?_
  refine (Shape.Reduces.fold_filter_drop_single reduces_S4x512x1024_S4x512 _ _ src (ix2 b r)).trans ?_
  show (Finset.univ : Finset (Fin 1024)).fold min (Ideal.ofBits .f32 0x7F800000#32)
      (fun k => src (reduces_S4x512x1024_S4x512.lift (ix2 b r) k)) = _
  rw [inf_eq_top]
  refine Finset.fold_congr fun k _ => congrArg src (funext fun a => Fin.ext ?_)
  match a with
  | ⟨0, _⟩ => rfl
  | ⟨1, _⟩ => rfl
  | ⟨2, _⟩ => rfl

/-- The minimum along the rows of a `[4, 512, 1024]` table: the fold of `min` from `⊤` over the row. -/
theorem minRows (src : FVec Ideal S4x512x1024 .f32) (hφ : FKind.Formats .f32)
    (hacc : (0x7F800000#32 : BitVec 32) = FKind.minimumf.neutral .f32 hφ) (b : Fin 4) (k : Fin 1024) :
    multiReduction .minimumf [1] S4x1024 src 0x7F800000#32 reduces_S4x512x1024_S4x1024 hφ hacc (ix2 b k)
      = (Finset.univ : Finset (Fin 512)).fold min ⊤ (fun r => src (ix3 b r k)) := by
  refine (multiReduction_minimumf_eq_fold src _ reduces_S4x512x1024_S4x1024 hφ hacc (ix2 b k)).trans ?_
  refine (Shape.Reduces.fold_filter_drop_single reduces_S4x512x1024_S4x1024 _ _ src (ix2 b k)).trans ?_
  show (Finset.univ : Finset (Fin 512)).fold min (Ideal.ofBits .f32 0x7F800000#32)
      (fun r => src (reduces_S4x512x1024_S4x1024.lift (ix2 b k) r)) = _
  rw [inf_eq_top]
  refine Finset.fold_congr fun r _ => congrArg src (funext fun a => Fin.ext ?_)
  match a with
  | ⟨0, _⟩ => rfl
  | ⟨1, _⟩ => rfl
  | ⟨2, _⟩ => rfl

/-- The column minima a tile contributes to the second output. -/
theorem pay6_apply (v3 v5 v7 : FVec Ideal S4x512 .f32) (v9 v11 v13 : FVec Ideal S4x1024 .f32) (b : Fin 4) (k : Fin 1024) :
    k0_pay6 (F := Ideal) v3 v5 v7 v9 v11 v13 (ix2 b k)
      = (Finset.univ : Finset (Fin 512)).fold min ⊤ (fun r => tile v3 v5 v7 v9 v11 v13 b r k) := by
  show multiReduction .minimumf [1] S4x1024 (k0_pay5 (F := Ideal) v3 v5 v7 v9 v11 v13) 0x7F800000#32
      reduces_S4x512x1024_S4x1024 (.inl rfl) rfl (ix2 b k) = _
  refine (minRows (k0_pay5 (F := Ideal) v3 v5 v7 v9 v11 v13) _ _ b k).trans ?_
  exact Finset.fold_congr fun r _ => pay5_apply v3 v5 v7 v9 v11 v13 b r k

/-- The running row minima after a tile: the `min` of what was kept with the tile's row minimum. -/
theorem pay7_apply (v3 v5 v7 : FVec Ideal S4x512 .f32) (v9 v11 v13 : FVec Ideal S4x1024 .f32) (v37 : FVec Ideal S4x512 .f32)
    (b : Fin 4) (r : Fin 512) :
    k0_pay7 (F := Ideal) v3 v5 v7 v9 v11 v13 v37 (ix2 b r)
      = min (v37 (ix2 b r)) ((Finset.univ : Finset (Fin 1024)).fold min ⊤ (fun k => tile v3 v5 v7 v9 v11 v13 b r k)) := by
  show min (v37 (ix2 b r)) (multiReduction .minimumf [2] S4x512 (k0_pay5 (F := Ideal) v3 v5 v7 v9 v11 v13) 0x7F800000#32
      reduces_S4x512x1024_S4x512 (.inl rfl) rfl (ix2 b r)) = _
  refine congrArg (min _) ((minCols (k0_pay5 (F := Ideal) v3 v5 v7 v9 v11 v13) _ _ b r).trans ?_)
  exact Finset.fold_congr fun k _ => pay5_apply v3 v5 v7 v9 v11 v13 b r k

/-- The cast that precedes the store of the running minima changes nothing. -/
theorem pay1_eq (v : FVec Ideal S4x512 .f32) : k0_pay1 (F := Ideal) v = v := by
  unfold k0_pay1; exact shapeCast_self _ _

/-- The running minima start from `⊤` everywhere. -/
theorem pay4_apply (i : S4x512.Idx) : k0_pay4 (F := Ideal) i = ⊤ := by
  unfold k0_pay4
  rw [shapeCast_self]
  exact inf_eq_top

/-- The closing step at an entry: the square root of the nonnegative part. -/
theorem pay3_apply (v : FVec Ideal S4x512 .f32) (i : S4x512.Idx) : k0_pay3 (F := Ideal) v i = Chamfer.nn (v i) := by
  show Ideal.sqrt (max (v i) (Ideal.ofBits .f32 0x00000000#32)) = Chamfer.nn (v i)
  rw [Ideal.ofBits_zero_f32]; rfl

/-- The column minima are stored under a leading unit axis: entry `(0, b, k)` is entry `(b, k)`. -/
theorem pay2_apply (v : FVec Ideal S4x1024 .f32) (u : Fin 1) (b : Fin 4) (k : Fin 1024) :
    k0_pay2 (F := Ideal) v (ix3 u b k) = v (ix2 b k) := by
  unfold k0_pay2
  refine shapeCast_apply v _ _ _ ?_
  have hu : u.val = 0 := by omega
  rw [Shape.rowMajor_val_three, Shape.rowMajor_val_two]
  show b.val * 1024 + k.val = (u.val * 4 + b.val) * 1024 + k.val
  rw [hu]; omega

end Cert.KernelIdeal.KPoint

end
-- ==== Proof.KernelBlocks.lean ====
/-
  The blocks a grid point sees, as entries of the two point clouds.

  Before the tiled computation the host cuts each cloud `[4, 8192, 3]` into its three coordinate planes
  `[4, 8192]` (a slice of width one on the last axis, then the unit axis dropped): plane `d` at `(b, n)` is the
  cloud at `(b, n, d)`. Grid point `t` (of 16 × 8, row run `t / 8`, column run `t % 8`) is handed rows
  `512·(t/8) + r` of the first cloud's planes and columns `1024·(t%8) + k` of the second's. So the table of squared
  distances the point forms is the specification's `sqd` at those rows and columns.
-/
import proofs.«155883_j16003048145308_2_alg».proof.Proof.Gen.KernelIdeal.Frame
import proofs.«155883_j16003048145308_2_alg».proof.Proof.Spec
import proofs.«155883_j16003048145308_2_alg».proof.Proof.KernelPoints
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen

variable (m : (ℓ : Loc nD τ sig) → Buf (Elt Ideal) ℓ)

/-- The first cloud as the program is launched with it. -/
abbrev cloudA (c : Dev nD) : Chamfer.Pts := m ((c : Thread nD τ).loc main_arg0)
/-- The second cloud as the program is launched with it. -/
abbrev cloudB (c : Dev nD) : Chamfer.Pts := m ((c : Thread nD τ).loc main_arg1)

/-- Coordinate plane `d` of a cloud — the width-one slice at `d` with its unit axis dropped — at `(b, n)` is the
    cloud at `(b, n, d)`. -/
theorem plane_apply (X : S4x8192x3.Idx → EReal) (d : Fin 3) (hs : S4x8192x3.Slices ![0, 0, d.val] S4x8192x1)
    (b : Fin 4) (n : Fin 8192) :
    shapeCast S4x8192 (extractStridedSlice S4x8192x1 ![0, 0, d.val] X hs) shapeCasts_S4x8192x1_S4x8192 (ix2 b n)
      = X (ix3 b n d) := by
  refine (shapeCast_apply _ _ (ix2 b n) (ix3 b n (0 : Fin 1)) ?_).trans ?_
  · rw [Shape.rowMajor_val_three, Shape.rowMajor_val_two]
    show (b.val * 8192 + n.val) * 1 + 0 = b.val * 8192 + n.val
    omega
  · refine extractStridedSlice_apply _ X hs _ (ix3 b n d) fun a => ?_
    match a with
    | ⟨0, _⟩ => show b.val = 0 + b.val; omega
    | ⟨1, _⟩ => show n.val = 0 + n.val; omega
    | ⟨2, _⟩ => show d.val = d.val + 0; omega

/-- The region finds plane 0 of the first cloud in `main_v1`. -/
theorem V_v1 (c : Dev nD) (b : Fin 4) (n : Fin 8192) :
    V m c main_v1 (ix2 b n) = m ((c : Thread nD τ).loc main_arg0) (ix3 b n (0 : Fin 3)) := by
  have e : (V m c main_v1 : S4x8192.Idx → EReal)
      = shapeCast S4x8192 (extractStridedSlice S4x8192x1 ![0, 0, 0] (m ((c : Thread nD τ).loc main_arg0)) slices_S4x8192x3_S4x8192x1_0_0_0)
          shapeCasts_S4x8192x1_S4x8192 := by
    show StableHlo.after hostOps0 (fun b => m (c, b)) (Proc.devRef .tc main_v1) = _
    after_results
    rfl
  exact (congrFun e (ix2 b n)).trans (plane_apply _ (0 : Fin 3) _ b n)

/-- The region finds plane 1 of the first cloud in `main_v3`. -/
theorem V_v3 (c : Dev nD) (b : Fin 4) (n : Fin 8192) :
    V m c main_v3 (ix2 b n) = m ((c : Thread nD τ).loc main_arg0) (ix3 b n (1 : Fin 3)) := by
  have e : (V m c main_v3 : S4x8192.Idx → EReal)
      = shapeCast S4x8192 (extractStridedSlice S4x8192x1 ![0, 0, 1] (m ((c : Thread nD τ).loc main_arg0)) slices_S4x8192x3_S4x8192x1_0_0_1)
          shapeCasts_S4x8192x1_S4x8192 := by
    show StableHlo.after hostOps0 (fun b => m (c, b)) (Proc.devRef .tc main_v3) = _
    after_results
    rfl
  exact (congrFun e (ix2 b n)).trans (plane_apply _ (1 : Fin 3) _ b n)

/-- The region finds plane 2 of the first cloud in `main_v5`. -/
theorem V_v5 (c : Dev nD) (b : Fin 4) (n : Fin 8192) :
    V m c main_v5 (ix2 b n) = m ((c : Thread nD τ).loc main_arg0) (ix3 b n (2 : Fin 3)) := by
  have e : (V m c main_v5 : S4x8192.Idx → EReal)
      = shapeCast S4x8192 (extractStridedSlice S4x8192x1 ![0, 0, 2] (m ((c : Thread nD τ).loc main_arg0)) slices_S4x8192x3_S4x8192x1_0_0_2)
          shapeCasts_S4x8192x1_S4x8192 := by
    show StableHlo.after hostOps0 (fun b => m (c, b)) (Proc.devRef .tc main_v5) = _
    after_results
    rfl
  exact (congrFun e (ix2 b n)).trans (plane_apply _ (2 : Fin 3) _ b n)

/-- The region finds plane 0 of the second cloud in `main_v7`. -/
theorem V_v7 (c : Dev nD) (b : Fin 4) (n : Fin 8192) :
    V m c main_v7 (ix2 b n) = m ((c : Thread nD τ).loc main_arg1) (ix3 b n (0 : Fin 3)) := by
  have e : (V m c main_v7 : S4x8192.Idx → EReal)
      = shapeCast S4x8192 (extractStridedSlice S4x8192x1 ![0, 0, 0] (m ((c : Thread nD τ).loc main_arg1)) slices_S4x8192x3_S4x8192x1_0_0_0)
          shapeCasts_S4x8192x1_S4x8192 := by
    show StableHlo.after hostOps0 (fun b => m (c, b)) (Proc.devRef .tc main_v7) = _
    after_results
    rfl
  exact (congrFun e (ix2 b n)).trans (plane_apply _ (0 : Fin 3) _ b n)

/-- The region finds plane 1 of the second cloud in `main_v9`. -/
theorem V_v9 (c : Dev nD) (b : Fin 4) (n : Fin 8192) :
    V m c main_v9 (ix2 b n) = m ((c : Thread nD τ).loc main_arg1) (ix3 b n (1 : Fin 3)) := by
  have e : (V m c main_v9 : S4x8192.Idx → EReal)
      = shapeCast S4x8192 (extractStridedSlice S4x8192x1 ![0, 0, 1] (m ((c : Thread nD τ).loc main_arg1)) slices_S4x8192x3_S4x8192x1_0_0_1)
          shapeCasts_S4x8192x1_S4x8192 := by
    show StableHlo.after hostOps0 (fun b => m (c, b)) (Proc.devRef .tc main_v9) = _
    after_results
    rfl
  exact (congrFun e (ix2 b n)).trans (plane_apply _ (1 : Fin 3) _ b n)

/-- The region finds plane 2 of the second cloud in `main_v11`. -/
theorem V_v11 (c : Dev nD) (b : Fin 4) (n : Fin 8192) :
    V m c main_v11 (ix2 b n) = m ((c : Thread nD τ).loc main_arg1) (ix3 b n (2 : Fin 3)) := by
  have e : (V m c main_v11 : S4x8192.Idx → EReal)
      = shapeCast S4x8192 (extractStridedSlice S4x8192x1 ![0, 0, 2] (m ((c : Thread nD τ).loc main_arg1)) slices_S4x8192x3_S4x8192x1_0_0_2)
          shapeCasts_S4x8192x1_S4x8192 := by
    show StableHlo.after hostOps0 (fun b => m (c, b)) (Proc.devRef .tc main_v11) = _
    after_results
    rfl
  exact (congrFun e (ix2 b n)).trans (plane_apply _ (2 : Fin 3) _ b n)

/-! ## The windows' block indices, decided once over the grid -/

theorem idx0 : ∀ t : Fin cfg0.N, win0_0.index t (0 : Fin 2) = 0 ∧ win0_0.index t (1 : Fin 2) = t.val / 8 :=
  (by decide +kernel : ∀ t : Fin grid0.N, _)
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx6 : ∀ t : Fin cfg0.N, win0_6.index t (0 : Fin 2) = 0 ∧ win0_6.index t (1 : Fin 2) = t.val / 8 :=
  (by decide +kernel : ∀ t : Fin grid0.N, _)
theorem idx3 : ∀ t : Fin cfg0.N, win0_3.index t (0 : Fin 2) = 0 ∧ win0_3.index t (1 : Fin 2) = t.val % 8 :=
  (by decide +kernel : ∀ t : Fin grid0.N, _)
theorem idx4 : ∀ t : Fin cfg0.N, win0_4.index t (0 : Fin 2) = 0 ∧ win0_4.index t (1 : Fin 2) = t.val % 8 :=
  (by decide +kernel : ∀ t : Fin grid0.N, _)
theorem idx5 : ∀ t : Fin cfg0.N, win0_5.index t (0 : Fin 2) = 0 ∧ win0_5.index t (1 : Fin 2) = t.val % 8 :=
  (by decide +kernel : ∀ t : Fin grid0.N, _)
theorem idx7 : ∀ t : Fin cfg0.N, win0_7.index t (0 : Fin 3) = t.val / 8 ∧ win0_7.index t (1 : Fin 3) = 0
    ∧ win0_7.index t (2 : Fin 3) = t.val % 8 :=
  (by decide +kernel : ∀ t : Fin grid0.N, _)

/-- A grid point's position is below 128. -/
theorem lt128 (t : Fin cfg0.N) : t.val < 128 := lt_of_lt_of_eq t.isLt (show cfg0.N = 128 from N_0)

/-! ## A block entry is an entry of its plane -/

theorem blk0_apply (c : Dev nD) (t : Fin cfg0.N) (b : Fin 4) (r : Fin 512) (n : Fin 8192)
    (hn : n.val = 512 * (t.val / 8) + r.val) : iblk m c 0 t (ix2 b r) = V m c main_v1 (ix2 b n) := by
  obtain ⟨e0, e1⟩ := idx0 t
  unfold iblk
  rw [View.read_apply]
  show V m c main_v1 _ = V m c main_v1 _
  congr 1
  funext a; apply Fin.ext
  match a with
  | ⟨0, _⟩ => show win0_0.index t (0 : Fin 2) * 4 + 1 * b.val = b.val; rw [e0]; omega
  | ⟨1, _⟩ => show win0_0.index t (1 : Fin 2) * 512 + 1 * r.val = n.val; rw [e1, hn]; omega

theorem blk1_apply (c : Dev nD) (t : Fin cfg0.N) (b : Fin 4) (r : Fin 512) (n : Fin 8192)
    (hn : n.val = 512 * (t.val / 8) + r.val) : iblk m c 1 t (ix2 b r) = V m c main_v3 (ix2 b n) := by
  obtain ⟨e0, e1⟩ := idx1 t
  unfold iblk
  rw [View.read_apply]
  show V m c main_v3 _ = V m c main_v3 _
  congr 1
  funext a; apply Fin.ext
  match a with
  | ⟨0, _⟩ => show win0_1.index t (0 : Fin 2) * 4 + 1 * b.val = b.val; rw [e0]; omega
  | ⟨1, _⟩ => show win0_1.index t (1 : Fin 2) * 512 + 1 * r.val = n.val; rw [e1, hn]; omega

theorem blk2_apply (c : Dev nD) (t : Fin cfg0.N) (b : Fin 4) (r : Fin 512) (n : Fin 8192)
    (hn : n.val = 512 * (t.val / 8) + r.val) : iblk m c 2 t (ix2 b r) = V m c main_v5 (ix2 b n) := by
  obtain ⟨e0, e1⟩ := idx2 t
  unfold iblk
  rw [View.read_apply]
  show V m c main_v5 _ = V m c main_v5 _
  congr 1
  funext a; apply Fin.ext
  match a with
  | ⟨0, _⟩ => show win0_2.index t (0 : Fin 2) * 4 + 1 * b.val = b.val; rw [e0]; omega
  | ⟨1, _⟩ => show win0_2.index t (1 : Fin 2) * 512 + 1 * r.val = n.val; rw [e1, hn]; omega

theorem blk3_apply (c : Dev nD) (t : Fin cfg0.N) (b : Fin 4) (k : Fin 1024) (n : Fin 8192)
    (hn : n.val = 1024 * (t.val % 8) + k.val) : iblk m c 3 t (ix2 b k) = V m c main_v7 (ix2 b n) := by
  obtain ⟨e0, e1⟩ := idx3 t
  unfold iblk
  rw [View.read_apply]
  show V m c main_v7 _ = V m c main_v7 _
  congr 1
  funext a; apply Fin.ext
  match a with
  | ⟨0, _⟩ => show win0_3.index t (0 : Fin 2) * 4 + 1 * b.val = b.val; rw [e0]; omega
  | ⟨1, _⟩ => show win0_3.index t (1 : Fin 2) * 1024 + 1 * k.val = n.val; rw [e1, hn]; omega

theorem blk4_apply (c : Dev nD) (t : Fin cfg0.N) (b : Fin 4) (k : Fin 1024) (n : Fin 8192)
    (hn : n.val = 1024 * (t.val % 8) + k.val) : iblk m c 4 t (ix2 b k) = V m c main_v9 (ix2 b n) := by
  obtain ⟨e0, e1⟩ := idx4 t
  unfold iblk
  rw [View.read_apply]
  show V m c main_v9 _ = V m c main_v9 _
  congr 1
  funext a; apply Fin.ext
  match a with
  | ⟨0, _⟩ => show win0_4.index t (0 : Fin 2) * 4 + 1 * b.val = b.val; rw [e0]; omega
  | ⟨1, _⟩ => show win0_4.index t (1 : Fin 2) * 1024 + 1 * k.val = n.val; rw [e1, hn]; omega

theorem blk5_apply (c : Dev nD) (t : Fin cfg0.N) (b : Fin 4) (k : Fin 1024) (n : Fin 8192)
    (hn : n.val = 1024 * (t.val % 8) + k.val) : iblk m c 5 t (ix2 b k) = V m c main_v11 (ix2 b n) := by
  obtain ⟨e0, e1⟩ := idx5 t
  unfold iblk
  rw [View.read_apply]
  show V m c main_v11 _ = V m c main_v11 _
  congr 1
  funext a; apply Fin.ext
  match a with
  | ⟨0, _⟩ => show win0_5.index t (0 : Fin 2) * 4 + 1 * b.val = b.val; rw [e0]; omega
  | ⟨1, _⟩ => show win0_5.index t (1 : Fin 2) * 1024 + 1 * k.val = n.val; rw [e1, hn]; omega

/-- Row `r` of row run `t / 8` is row `512·(t/8) + r`. -/
theorem rowAt_val (t : Fin cfg0.N) (r : Fin 512) : (Chamfer.rowAt (t.val / 8) r).val = 512 * (t.val / 8) + r.val := by
  have := lt128 t
  show (512 * (t.val / 8) + r.val) % 8192 = _
  omega

/-- Column `k` of column run `t % 8` is column `1024·(t%8) + k`. -/
theorem colAt_val (t : Fin cfg0.N) (k : Fin 1024) : (Chamfer.colAt (t.val % 8) k).val = 1024 * (t.val % 8) + k.val := by
  show (1024 * (t.val % 8) + k.val) % 8192 = _
  omega

/-- The table of squared distances a grid point forms is the specification's, at the point's rows and columns. -/
theorem tile_eq (c : Dev nD) (t : Fin cfg0.N) (b : Fin 4) (r : Fin 512) (k : Fin 1024) :
    KPoint.tile (iblk m c 0 t) (iblk m c 1 t) (iblk m c 2 t) (iblk m c 3 t) (iblk m c 4 t) (iblk m c 5 t) b r k
      = Chamfer.sqd (cloudA m c) (cloudB m c) b (Chamfer.rowAt (t.val / 8) r) (Chamfer.colAt (t.val % 8) k) := by
  unfold KPoint.tile Chamfer.sqd Chamfer.crd
  rw [blk0_apply m c t b r _ (rowAt_val t r), blk1_apply m c t b r _ (rowAt_val t r), blk2_apply m c t b r _ (rowAt_val t r),
    blk3_apply m c t b k _ (colAt_val t k), blk4_apply m c t b k _ (colAt_val t k), blk5_apply m c t b k _ (colAt_val t k),
    V_v1, V_v3, V_v5, V_v7, V_v9, V_v11]

end Cert.KernelIdeal.KBlocks

end
-- ==== Proof.KernelGrid.lean ====
/-
  Along the grid: what the carried running minima and the two outputs' blocks hold after each point.

  The sixteen row runs are visited one after the other, and within a row run the eight column runs in order. The
  running row minima are reset to `⊤` at a row run's first column run and take the `min` with each tile's row
  minima, so after column run `j` of row run `i` they hold, at `(b, r)`, the specification's `rowAcc` of row
  `512 i + r` after `j` — by induction on the point. At the last column run the first output's block receives
  `√(max · 0)` of them; at every point the second output's block receives the tile's column minima, the
  specification's `colBlk`.
-/
import proofs.«155883_j16003048145308_2_alg».proof.Proof.KernelCases
import proofs.«155883_j16003048145308_2_alg».proof.Proof.KernelPoints
import proofs.«155883_j16003048145308_2_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.KGrid

open Cert.KernelIdeal Cert.KernelIdeal.Gen Cert.KernelIdeal.KBlocks

variable (m : (ℓ : Loc nD τ sig) → Buf (Elt Ideal) ℓ)

/-- The table of squared distances of the two clouds the program is launched with. -/
abbrev D (c : Dev nD) : Chamfer.Pair := Chamfer.sqd (cloudA m c) (cloudB m c)

/-- The running row minima after a point's tile, from those kept before it. -/
abbrev stepMin (c : Dev nD) (t : Fin cfg0.N) (xs : Vec Ideal S4x512 .f32) : Vec Ideal S4x512 .f32 :=
  k0_pay1 (k0_pay7 (iblk m c 0 t) (iblk m c 1 t) (iblk m c 2 t) (iblk m c 3 t) (iblk m c 4 t) (iblk m c 5 t) xs)

/-! ## The three cases, at a point of the grid -/

theorem scr_first (c : Dev nD) (t : Fin cfg0.N) (h0 : t.val % 8 = 0) :
    (outsAt0 m c t.val t.isLt).2.2 = stepMin m c t (k0_pay4 (F := Ideal)) := by
  have h1 : ¬t.val % 8 = 7 := by omega
  rw [outsAt0_A m c t h0 h1]
  dsimp only
  exact KValue.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem scr_next (c : Dev nD) (t : Fin cfg0.N) (h0 : ¬t.val % 8 = 0) :
    (outsAt0 m c t.val t.isLt).2.2 = stepMin m c t (outsAt0 m c (t.val - 1) (Nat.lt_of_le_of_lt (Nat.sub_le _ _) t.isLt)).2.2 := by
  by_cases h1 : t.val % 8 = 7
  · rw [outsAt0_C m c t h0 h1]
    dsimp only
    exact KValue.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
  · rw [outsAt0_B m c t h0 h1]
    dsimp only
    exact KValue.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

theorem out7_all (c : Dev nD) (t : Fin cfg0.N) :
    (outsAt0 m c t.val t.isLt).2.1 = k0_pay2 (k0_pay6 (iblk m c 0 t) (iblk m c 1 t) (iblk m c 2 t) (iblk m c 3 t) (iblk m c 4 t) (iblk m c 5 t)) := by
  by_cases h0 : t.val % 8 = 0
  · have h1 : ¬t.val % 8 = 7 := by omega
    rw [outsAt0_A m c t h0 h1]
    dsimp only
    exact KValue.out7_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · by_cases h1 : t.val % 8 = 7
    · rw [outsAt0_C m c t h0 h1]
      dsimp only
      exact KValue.out7_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
    · rw [outsAt0_B m c t h0 h1]
      dsimp only
      exact KValue.out7_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

theorem out6_last (c : Dev nD) (t : Fin cfg0.N) (h1 : t.val % 8 = 7) :
    (outsAt0 m c t.val t.isLt).1 = k0_pay3 ((outsAt0 m c t.val t.isLt).2.2) := by
  have h0 : ¬t.val % 8 = 0 := by omega
  rw [outsAt0_C m c t h0 h1]
  dsimp only
  rw [KValue.out6_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2,
    KValue.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2]

/-! ## The values -/

/-- One step of the running minima at an entry: the `min` of what was kept with the row's least entry in the point's
    column run. -/
theorem stepMin_apply (c : Dev nD) (t : Fin cfg0.N) (xs : Vec Ideal S4x512 .f32) (b : Fin 4) (r : Fin 512) :
    stepMin m c t xs (ix2 b r)
      = min (xs (ix2 b r)) (Chamfer.rowBlk (D m c) b (Chamfer.rowAt (t.val / 8) r) (t.val % 8)) := by
  refine (congrFun (KPoint.pay1_eq _) (ix2 b r)).trans ((KPoint.pay7_apply _ _ _ _ _ _ xs b r).trans ?_)
  refine congrArg (min _) ?_
  unfold Chamfer.rowBlk
  exact Finset.fold_congr fun k _ => tile_eq m c t b r k

/-- THE INVARIANT: after point `n` the carried running minima are the specification's, of the point's row run after its
    column run. -/
theorem scratch_eq (c : Dev nD) : ∀ (n : ℕ) (h : n < cfg0.N) (b : Fin 4) (r : Fin 512),
    (outsAt0 m c n h).2.2 (ix2 b r) = Chamfer.rowAcc (D m c) b (Chamfer.rowAt (n / 8) r) (n % 8)
  | 0, h, b, r => by
    refine (congrFun (scr_first m c ⟨0, h⟩ rfl) (ix2 b r)).trans ((stepMin_apply m c ⟨0, h⟩ _ b r).trans ?_)
    show min (k0_pay4 (F := Ideal) (ix2 b r)) (Chamfer.rowBlk (D m c) b (Chamfer.rowAt (0 / 8) r) (0 % 8))
      = Chamfer.rowAcc (D m c) b (Chamfer.rowAt (0 / 8) r) (0 % 8)
    rw [KPoint.pay4_apply]; rfl
  | n + 1, h, b, r => by
    by_cases h0 : (n + 1) % 8 = 0
    · refine (congrFun (scr_first m c ⟨n + 1, h⟩ h0) (ix2 b r)).trans ((stepMin_apply m c ⟨n + 1, h⟩ _ b r).trans ?_)
      show min (k0_pay4 (F := Ideal) (ix2 b r)) (Chamfer.rowBlk (D m c) b (Chamfer.rowAt ((n + 1) / 8) r) ((n + 1) % 8))
        = Chamfer.rowAcc (D m c) b (Chamfer.rowAt ((n + 1) / 8) r) ((n + 1) % 8)
      rw [KPoint.pay4_apply, h0]; rfl
    · refine (congrFun (scr_next m c ⟨n + 1, h⟩ h0) (ix2 b r)).trans ((stepMin_apply m c ⟨n + 1, h⟩ _ b r).trans ?_)
      show min ((outsAt0 m c n _).2.2 (ix2 b r)) (Chamfer.rowBlk (D m c) b (Chamfer.rowAt ((n + 1) / 8) r) ((n + 1) % 8))
        = Chamfer.rowAcc (D m c) b (Chamfer.rowAt ((n + 1) / 8) r) ((n + 1) % 8)
      rw [scratch_eq c n _ b r]
      have e1 : (n + 1) / 8 = n / 8 := by omega
      have e2 : (n + 1) % 8 = n % 8 + 1 := by omega
      rw [e1, e2]; rfl

/-- At a row run's last column run the first output's block holds the distances from the finished running minima. -/
theorem out6_eq (c : Dev nD) (t : Fin cfg0.N) (h1 : t.val % 8 = 7) (b : Fin 4) (r : Fin 512) :
    (outsAt0 m c t.val t.isLt).1 (ix2 b r) = Chamfer.nn (Chamfer.rowAcc (D m c) b (Chamfer.rowAt (t.val / 8) r) 7) := by
  refine (congrFun (out6_last m c t h1) (ix2 b r)).trans ((KPoint.pay3_apply _ (ix2 b r)).trans ?_)
  rw [scratch_eq m c t.val t.isLt b r, h1]

/-- At every point the second output's block holds the column minima of the point's tile. -/
theorem out7_eq (c : Dev nD) (t : Fin cfg0.N) (u : Fin 1) (b : Fin 4) (k : Fin 1024) :
    (outsAt0 m c t.val t.isLt).2.1 (ix3 u b k)
      = Chamfer.colBlk (D m c) b (Chamfer.colAt (t.val % 8) k) (t.val / 8) := by
  refine (congrFun (out7_all m c t) (ix3 u b k)).trans
    ((KPoint.pay2_apply _ u b k).trans ((KPoint.pay6_apply _ _ _ _ _ _ b k).trans ?_))
  unfold Chamfer.colBlk
  exact Finset.fold_congr fun r _ => tile_eq m c t b r k

end Cert.KernelIdeal.KGrid

end
-- ==== Proof.KernelArrays.lean ====
/-
  From blocks to arrays: what the two output arrays hold after the tiled computation.

  The first output `[4, 8192]` is written back once per row run, at its last column run: block `(0, t/8)` of
  `[4, 512]`, rows `512·(t/8) + r`. The second output `[16, 4, 8192]` is written back at every point: block
  `(t/8, 0, t%8)` of `[1, 4, 1024]`. Either family of blocks tiles its array, so each array ends holding one function
  of the clouds: the first the specification's `tiled1`, the second, at `(i, b, m)`, the least squared distance to
  column `m` within row run `i`.
-/
import proofs.«155883_j16003048145308_2_alg».proof.Proof.KernelGrid
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KArrays

open Cert.KernelIdeal Cert.KernelIdeal.Gen Cert.KernelIdeal.KBlocks Cert.KernelIdeal.KGrid

variable (m : (ℓ : Loc nD τ sig) → Buf (Elt Ideal) ℓ)

/-- What the first output array ends holding. -/
abbrev G6 (c : Dev nD) : S4x8192.Idx → EReal := Chamfer.tiled1 (cloudA m c) (cloudB m c)

/-- What the second output array ends holding: at `(i, b, m)` the least squared distance to column `m` in row run `i`. -/
abbrev G7 (c : Dev nD) : S16x4x8192.Idx → EReal := fun i => Chamfer.colBlk (D m c) (i 1) (i 2) (i 0).val

/-! ## The first output -/

/-- An entry of the block written back at a row run's last column run, named by where it lands in the array. -/
theorem out6_at (c : Dev nD) (t : Fin cfg0.N) (h1 : t.val % 8 = 7) (y : S4x512.Idx) (i : S4x8192.Idx)
    (hi0 : (i 0).val = (y 0).val) (hi1 : (i 1).val = 512 * (t.val / 8) + (y 1).val) :
    (outsAt0 m c t.val t.isLt).1 y = G6 m c i := by
  obtain ⟨b, r, rfl⟩ : ∃ (b : Fin 4) (r : Fin 512), y = ix2 b r := ⟨y 0, y 1, eq_ix2 y⟩
  obtain ⟨b', n, rfl⟩ : ∃ (b' : Fin 4) (n : Fin 8192), i = ix2 b' n := ⟨i 0, i 1, eq_ix2 i⟩
  obtain rfl : b = b' := (Fin.ext hi0).symm
  obtain rfl : n = Chamfer.rowAt (t.val / 8) r := Fin.ext (hi1.trans (rowAt_val t r).symm)
  exact out6_eq m c t h1 b r

theorem flushed6_eq (c : Dev nD) (t : Fin cfg0.N) (hf : (cfg0.win 6).flush t = true) :
    (dats m 0 c).flushed 6 t = ((cfg0.win 6).blk t).view.read (Elt Ideal) (G6 m c) := by
  have h1 : t.val % 8 = 7 := (flush0_6 t).mp hf
  obtain ⟨e0, e1⟩ := idx6 t
  show (cfg0.win 6).cut (grid0.coords t) ((dats m 0 c).after 6 t) = _
  rw [after0_6]
  funext j
  show (outsAt0 m c t.val t.isLt).1 j = G6 m c (((cfg0.win 6).blk t).view.emb j)
  refine out6_at m c t h1 j _ ?_ ?_
  · show win0_6.index t (0 : Fin 2) * 4 + 1 * (j 0).val = (j 0).val
    rw [e0]; omega
  · show win0_6.index t (1 : Fin 2) * 512 + 1 * (j 1).val = 512 * (t.val / 8) + (j 1).val
    rw [e1]; omega

theorem mem_blk6 (t : Fin cfg0.N) (i : S4x8192.Idx) :
    i ∈ ((cfg0.win 6).blk t).view.set ↔ ∀ a : Fin 2, win0_6.index t a * S4x512.size a ≤ (i a).val
      ∧ (i a).val < win0_6.index t a * S4x512.size a + S4x512.size a := by
  show i ∈ ((View.whole main_v12_0).slice (win0_6.rect t)).set ↔ _
  rw [View.set_slice_whole, Rect.mem_set_unit]
  exact Iff.rfl

/-- Row `n` lies in the block written back at the last column run of row run `n / 512`. -/
theorem cover6 (i : S4x8192.Idx) :
    ∃ t : Fin cfg0.N, (cfg0.win 6).flush t = true ∧ i ∈ ((cfg0.win 6).blk t).view.set := by
  have hi0 : (i 0).val < 4 := (i 0).isLt
  have hi1 : (i 1).val < 8192 := (i 1).isLt
  have hlt : 8 * ((i 1).val / 512) + 7 < cfg0.N :=
    lt_of_lt_of_eq (by omega : 8 * ((i 1).val / 512) + 7 < 128) (show cfg0.N = 128 from N_0).symm
  have tv : (⟨8 * ((i 1).val / 512) + 7, hlt⟩ : Fin cfg0.N).val = 8 * ((i 1).val / 512) + 7 := rfl
  obtain ⟨e0, e1⟩ := idx6 ⟨8 * ((i 1).val / 512) + 7, hlt⟩
  refine ⟨⟨8 * ((i 1).val / 512) + 7, hlt⟩, (flush0_6 _).mpr (by rw [tv]; omega), ?_⟩
  rw [mem_blk6]
  intro a
  match a with
  | ⟨0, _⟩ =>
    show win0_6.index _ (0 : Fin 2) * 4 ≤ (i 0).val ∧ (i 0).val < win0_6.index _ (0 : Fin 2) * 4 + 4
    rw [e0]; omega
  | ⟨1, _⟩ =>
    show win0_6.index _ (1 : Fin 2) * 512 ≤ (i 1).val ∧ (i 1).val < win0_6.index _ (1 : Fin 2) * 512 + 512
    rw [e1, tv]; omega

/-- The first output array after the region. -/
theorem final6 (c : Dev nD) : (dats m 0 c).arrAt 6 cfg0.N = G6 m c :=
  (dats m 0 c).arrAt_eq_of_cover 6 (G6 m c) (flushed6_eq m c) cover6

/-! ## The second output -/

/-- An entry of the block a point writes back, named by where it lands in the array. -/
theorem out7_at (c : Dev nD) (t : Fin cfg0.N) (y : S1x4x1024.Idx) (i : S16x4x8192.Idx)
    (hi0 : (i 0).val = t.val / 8 + (y 0).val) (hi1 : (i 1).val = (y 1).val)
    (hi2 : (i 2).val = 1024 * (t.val % 8) + (y 2).val) :
    (outsAt0 m c t.val t.isLt).2.1 y = G7 m c i := by
  obtain ⟨u, b, k, rfl⟩ : ∃ (u : Fin 1) (b : Fin 4) (k : Fin 1024), y = ix3 u b k := ⟨y 0, y 1, y 2, eq_ix3 y⟩
  obtain ⟨q, b', n, rfl⟩ : ∃ (q : Fin 16) (b' : Fin 4) (n : Fin 8192), i = ix3 q b' n := ⟨i 0, i 1, i 2, eq_ix3 i⟩
  obtain rfl : b = b' := (Fin.ext hi1).symm
  obtain rfl : n = Chamfer.colAt (t.val % 8) k := Fin.ext (hi2.trans (colAt_val t k).symm)
  have hq : q.val = t.val / 8 := by
    have h : q.val = t.val / 8 + u.val := hi0
    omega
  refine (out7_eq m c t u b k).trans ?_
  show Chamfer.colBlk (D m c) b (Chamfer.colAt (t.val % 8) k) (t.val / 8)
    = Chamfer.colBlk (D m c) b (Chamfer.colAt (t.val % 8) k) q.val
  rw [hq]

theorem flushed7_eq (c : Dev nD) (t : Fin cfg0.N) (hf : (cfg0.win 7).flush t = true) :
    (dats m 0 c).flushed 7 t = ((cfg0.win 7).blk t).view.read (Elt Ideal) (G7 m c) := by
  obtain ⟨e0, e1, e2⟩ := idx7 t
  show (cfg0.win 7).cut (grid0.coords t) ((dats m 0 c).after 7 t) = _
  rw [after0_7]
  funext j
  show (outsAt0 m c t.val t.isLt).2.1 j = G7 m c (((cfg0.win 7).blk t).view.emb j)
  refine out7_at m c t j _ ?_ ?_ ?_
  · show win0_7.index t (0 : Fin 3) * 1 + 1 * (j 0).val = t.val / 8 + (j 0).val
    rw [e0]; omega
  · show win0_7.index t (1 : Fin 3) * 4 + 1 * (j 1).val = (j 1).val
    rw [e1]; omega
  · show win0_7.index t (2 : Fin 3) * 1024 + 1 * (j 2).val = 1024 * (t.val % 8) + (j 2).val
    rw [e2]; omega

theorem mem_blk7 (t : Fin cfg0.N) (i : S16x4x8192.Idx) :
    i ∈ ((cfg0.win 7).blk t).view.set ↔ ∀ a : Fin 3, win0_7.index t a * S1x4x1024.size a ≤ (i a).val
      ∧ (i a).val < win0_7.index t a * S1x4x1024.size a + S1x4x1024.size a := by
  show i ∈ ((View.whole main_v12_1).slice (win0_7.rect t)).set ↔ _
  rw [View.set_slice_whole, Rect.mem_set_unit]
  exact Iff.rfl

/-- Entry `(i, b, m)` lies in the block of the point at row run `i`, column run `m / 1024`. -/
theorem cover7 (i : S16x4x8192.Idx) :
    ∃ t : Fin cfg0.N, (cfg0.win 7).flush t = true ∧ i ∈ ((cfg0.win 7).blk t).view.set := by
  have hi0 : (i 0).val < 16 := (i 0).isLt
  have hi1 : (i 1).val < 4 := (i 1).isLt
  have hi2 : (i 2).val < 8192 := (i 2).isLt
  have hlt : 8 * (i 0).val + (i 2).val / 1024 < cfg0.N :=
    lt_of_lt_of_eq (by omega : 8 * (i 0).val + (i 2).val / 1024 < 128) (show cfg0.N = 128 from N_0).symm
  have tv : (⟨8 * (i 0).val + (i 2).val / 1024, hlt⟩ : Fin cfg0.N).val = 8 * (i 0).val + (i 2).val / 1024 := rfl
  obtain ⟨e0, e1, e2⟩ := idx7 ⟨8 * (i 0).val + (i 2).val / 1024, hlt⟩
  refine ⟨⟨8 * (i 0).val + (i 2).val / 1024, hlt⟩, flush0_7 _, ?_⟩
  rw [mem_blk7]
  intro a
  match a with
  | ⟨0, _⟩ =>
    show win0_7.index _ (0 : Fin 3) * 1 ≤ (i 0).val ∧ (i 0).val < win0_7.index _ (0 : Fin 3) * 1 + 1
    rw [e0, tv]; omega
  | ⟨1, _⟩ =>
    show win0_7.index _ (1 : Fin 3) * 4 ≤ (i 1).val ∧ (i 1).val < win0_7.index _ (1 : Fin 3) * 4 + 4
    rw [e1]; omega
  | ⟨2, _⟩ =>
    show win0_7.index _ (2 : Fin 3) * 1024 ≤ (i 2).val ∧ (i 2).val < win0_7.index _ (2 : Fin 3) * 1024 + 1024
    rw [e2, tv]; omega

/-- The second output array after the region. -/
theorem final7 (c : Dev nD) : (dats m 0 c).arrAt 7 cfg0.N = G7 m c :=
  (dats m 0 c).arrAt_eq_of_cover 7 (G7 m c) (flushed7_eq m c) cover7

end Cert.KernelIdeal.KArrays

end
-- ==== Proof.KernelTail.lean ====
/-
  After the tiled computation: the host's closing lines, and the whole run read as a value.

  The host takes the least of the sixteen run minima of each column, turns it into a distance (`√(max · 0)`), totals
  each of the two tables of distances from the f32 zero, divides each total by 32768 and adds the two means. A total
  over every entry of a `[4, 8192]` table is the initial value plus the sum over the index set; the reduction over
  the leading axis of `[16, 4, 8192]` is the fold of `min` from `⊤` over the sixteen runs. So the program's result is
  the specification's `closing` of the two tiled tables.
-/
import proofs.«155883_j16003048145308_2_alg».proof.Proof.KernelArrays
import Idealize.ShloMosaic.Lib.StableHlo.Run
import Idealize.ShloMosaic.PureOps.Ideal.Laws
import Idealize.ShloMosaic.PureOps.Reduce

noncomputable section

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen Cert.KernelIdeal.KBlocks Cert.KernelIdeal.KGrid Cert.KernelIdeal.KArrays

/-- The total of a `[4, 8192]` table: the initial value plus the sum of every entry. -/
theorem total_apply (y : FVec Ideal S4x8192 .f32) (z : FVec Ideal S_ .f32) (i : S_.Idx) :
    Host.reduceAdd (F := Ideal) y z reducesTo_S4x8192_S_d0_1 h_S_ i = z (Shape.Idx.first h_S_) + ∑ j : S4x8192.Idx, y j := by
  simp only [Host.reduceAdd, Ideal.hostReduceAdd_def]
  exact Ideal.hostReduceAdd_total reducesTo_S4x8192_S_d0_1 (fun b => b.elim0) y _ i

/-- The least of the sixteen run minima of a column. -/
theorem runMin_apply (w : FVec Ideal S16x4x8192 .f32) (b : Fin 4) (n : Fin 8192) :
    Host.reduce FloatOps.minimumf w (constant (F := Ideal) S_ .f32 0x7F800000#32) reducesTo_S16x4x8192_S4x8192_d0 h_S_ (ix2 b n)
      = (Finset.univ : Finset (Fin 16)).fold min ⊤ (fun q => w (ix3 q b n)) := by
  have hR : S16x4x8192.Reduces [0] S4x8192 := by decide
  refine (Host.reduce_eq_fold_single FloatOps.minimumf w _ reducesTo_S16x4x8192_S4x8192_d0 hR h_S_ (ix2 b n)).trans ?_
  show (Finset.univ : Finset (Fin 16)).fold min (Ideal.ofBits .f32 0x7F800000#32) (fun q => w (hR.lift (ix2 b n) q)) = _
  rw [KPoint.inf_eq_top]
  refine Finset.fold_congr fun q _ => congrArg w (funext fun a => Fin.ext ?_)
  match a with
  | ⟨0, _⟩ => rfl
  | ⟨1, _⟩ => rfl
  | ⟨2, _⟩ => rfl

/-- The splat of the f32 zero over a `[4, 8192]` table is `0` at every entry. -/
theorem zeroSplat_apply (i : S4x8192.Idx) :
    broadcastInDim S4x8192 ![] bcast_S_S4x8192 (constant (F := Ideal) S_ .f32 0x00000000#32) i = 0 := by
  refine (broadcastInDim_apply _ bcast_S_S4x8192 _ i (fun a => a.elim0) (fun a => a.elim0)).trans ?_
  exact Ideal.ofBits_zero_f32

/-- The host's square root at an entry. -/
theorem hostSqrt_apply (x : FVec Ideal S4x8192 .f32) (i : S4x8192.Idx) : Host.sqrt (F := Ideal) x i = Ideal.sqrt (x i) := rfl

/-- The distances from the run minima, as a table. -/
theorem dist2_eq (w : FVec Ideal S16x4x8192 .f32) :
    Host.sqrt (F := Ideal) (maximumf (Host.reduce FloatOps.minimumf w (constant (F := Ideal) S_ .f32 0x7F800000#32)
        reducesTo_S16x4x8192_S4x8192_d0 h_S_) (broadcastInDim S4x8192 ![] bcast_S_S4x8192 (constant (F := Ideal) S_ .f32 0x00000000#32)))
      = fun i => Chamfer.nn ((Finset.univ : Finset (Fin 16)).fold min ⊤ (fun q => w (ix3 q (i 0) (i 1)))) := by
  funext i
  obtain ⟨b, n, rfl⟩ : ∃ (b : Fin 4) (n : Fin 8192), i = ix2 b n := ⟨i 0, i 1, eq_ix2 i⟩
  rw [hostSqrt_apply, maximumf_apply, runMin_apply, zeroSplat_apply]
  rfl

/-- The host's closing lines on any two tables. -/
theorem tail_value (u : FVec Ideal S4x8192 .f32) (w : FVec Ideal S16x4x8192 .f32) :
    addf (F := Ideal)
        (Host.divf (F := Ideal) (Host.reduceAdd (F := Ideal) u (constant (F := Ideal) S_ .f32 0x00000000#32) reducesTo_S4x8192_S_d0_1 h_S_)
          (constant (F := Ideal) S_ .f32 0x47000000#32))
        (Host.divf (F := Ideal)
          (Host.reduceAdd (F := Ideal)
            (Host.sqrt (F := Ideal) (maximumf (Host.reduce FloatOps.minimumf w (constant (F := Ideal) S_ .f32 0x7F800000#32)
              reducesTo_S16x4x8192_S4x8192_d0 h_S_) (broadcastInDim S4x8192 ![] bcast_S_S4x8192 (constant (F := Ideal) S_ .f32 0x00000000#32))))
            (constant (F := Ideal) S_ .f32 0x00000000#32) reducesTo_S4x8192_S_d0_1 h_S_)
          (constant (F := Ideal) S_ .f32 0x47000000#32))
      = fun _ => Chamfer.closing u
          (fun i => Chamfer.nn ((Finset.univ : Finset (Fin 16)).fold min ⊤ (fun q => w (ix3 q (i 0) (i 1))))) := by
  rw [dist2_eq]
  funext j
  show FloatOps.addf (F := Ideal) (φ := .f32)
      (FloatOps.hostDivf (F := Ideal) (φ := .f32)
        (Host.reduceAdd (F := Ideal) u (constant (F := Ideal) S_ .f32 0x00000000#32) reducesTo_S4x8192_S_d0_1 h_S_ j)
        (FloatOps.ofBits (F := Ideal) .f32 0x47000000#32))
      (FloatOps.hostDivf (F := Ideal) (φ := .f32)
        (Host.reduceAdd (F := Ideal) _ (constant (F := Ideal) S_ .f32 0x00000000#32) reducesTo_S4x8192_S_d0_1 h_S_ j)
        (FloatOps.ofBits (F := Ideal) .f32 0x47000000#32)) = _
  rw [total_apply, total_apply]
  rfl

variable (m : (ℓ : Loc nD τ sig) → Buf (Elt Ideal) ℓ) (ρ : Dev nD → PrngReg)

/-- The program's result: the closing of the two tiled tables of the clouds it was launched with. -/
theorem result_eq (c : Dev nD) :
    Pipeline.afterTail₀ cfgs (dats m) 0 (V0 m) [hostOps1] c main_v21
      = fun _ => Chamfer.closing (Chamfer.tiled1 (cloudA m c) (cloudB m c)) (Chamfer.tiled2 (cloudA m c) (cloudB m c)) := by
  have e6 : Pipeline.withArrays (cfgs 0).spec c (V0 m c) (fun w => (dats m 0 c).arrAt w (cfgs 0).N)
      (Proc.devRef .tc main_v12_0) = G6 m c :=
    (Pipeline.withArrays_arr spec0 launch0.win.arr_inj c _ _ 6).trans (final6 m c)
  have e7 : Pipeline.withArrays (cfgs 0).spec c (V0 m c) (fun w => (dats m 0 c).arrAt w (cfgs 0).N)
      (Proc.devRef .tc main_v12_1) = G7 m c :=
    (Pipeline.withArrays_arr spec0 launch0.win.arr_inj c _ _ 7).trans (final7 m c)
  unfold Pipeline.afterTail₀
  show StableHlo.after hostOps1 _ (Proc.devRef .tc main_v21) = _
  after_results
  rw [e6, e7]
  exact tail_value (G6 m c) (G7 m c)

/-- The idealized kernel's run, read: every weakly fair execution ends with the result at the closing of the two
    tiled tables and the two clouds as launched. -/
theorem run : θ_run defs (onTc (τ := τ) (main (F := Ideal))) ⟨m, fun _ => 0, ρ⟩ fun r => ∀ c : Dev nD,
      r.2.mem ((c.tc : Thread nD τ).loc main_v21)
          = (fun _ => Chamfer.closing (Chamfer.tiled1 (cloudA m c) (cloudB m c)) (Chamfer.tiled2 (cloudA m c) (cloudB m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KTail

end
-- ==== Proof.lean ====
/-
  Chamfer distance between two point clouds `[4, 8192, 3]`: a tiled computation against the plain one, equal on the
  extended reals when every coordinate is finite.

  The plain computation forms, for every pair (point `n` of the first cloud, point `m` of the second), the squared
  distance by the expansion `|a|² + |b|² − 2 a·b`, the distance `√(max · 0)` of it, then the least distance along each
  row and along each column, and adds the means of the two tables of nearest distances. The tiled computation walks a
  16 × 8 grid of 512 × 1024 tiles; in a tile it forms the squared distances as sums of squared coordinate differences,
  keeps a running minimum along each row across the eight column runs and takes `√(max · 0)` of it at the last one, and
  writes each tile's column minima out, of which the host takes the least over the sixteen row runs before the same
  `√(max · 0)` and the same two means.

  The two agree because (i) for real coordinates `Σ_d (a_d − b_d)² = Σ a² + Σ b² − 2 Σ a b` — this is where finiteness
  is used: the extended reals do not distribute at ±∞ —, (ii) a minimum over 8192 entries is the minimum of the minima
  of its runs, in any grouping, and (iii) `√(max · 0)` is monotone and fixes `⊤`, so it commutes with a minimum.
  `Spec` states both spellings; `MinAlgebra` proves (i)–(iii); `RefStages` reads the plain computation's stages as its
  spelling, `KernelCases` … `KernelTail` the tiled computation's run as the other; `RealInputs` turns the
  precondition into real coordinates. The idealization rewrote nothing, so that claim is `True`.
-/
import proofs.«155883_j16003048145308_2_alg».proof.Defs
import proofs.«155883_j16003048145308_2_alg».proof.Proof.Gen.Kernel
import proofs.«155883_j16003048145308_2_alg».proof.Proof.Gen.Kernel.Skeleton
import proofs.«155883_j16003048145308_2_alg».proof.Proof.Gen.Kernel.Launch
import proofs.«155883_j16003048145308_2_alg».proof.Proof.Gen.Kernel.Points
import proofs.«155883_j16003048145308_2_alg».proof.Proof.Gen.Kernel.Frame
import proofs.«155883_j16003048145308_2_alg».proof.Proof.Gen.KernelIdeal
import proofs.«155883_j16003048145308_2_alg».proof.Proof.Gen.KernelIdeal.Skeleton
import proofs.«155883_j16003048145308_2_alg».proof.Proof.Gen.KernelIdeal.Launch
import proofs.«155883_j16003048145308_2_alg».proof.Proof.Gen.KernelIdeal.Points
import proofs.«155883_j16003048145308_2_alg».proof.Proof.Gen.KernelIdeal.Frame
import proofs.«155883_j16003048145308_2_alg».proof.Proof.Gen.ReferenceIdeal
import proofs.«155883_j16003048145308_2_alg».proof.Proof.Gen.ReferenceIdeal.Run
import proofs.«155883_j16003048145308_2_alg».proof.Proof.Gen.ReferenceIdeal.Read
import proofs.«155883_j16003048145308_2_alg».proof.Proof.Gen.Pre_finite_inputs
import proofs.«155883_j16003048145308_2_alg».proof.Proof.Spec
import proofs.«155883_j16003048145308_2_alg».proof.Proof.MinAlgebra
import proofs.«155883_j16003048145308_2_alg».proof.Proof.RealInputs
import proofs.«155883_j16003048145308_2_alg».proof.Proof.RefStages
import proofs.«155883_j16003048145308_2_alg».proof.Proof.KernelTail
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The plain computation is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- On clouds of finite coordinates the tiled and the plain computation end with the same extended real. -/
theorem algebraic : Cert.algebraic_KernelIdeal_ReferenceIdeal := by
  intro m ρ m' ρ' hpre hagree
  refine ⟨fun c => fun _ => Chamfer.closing
      (Chamfer.tiled1 (Cert.KernelIdeal.KBlocks.cloudA m c) (Cert.KernelIdeal.KBlocks.cloudB m c))
      (Chamfer.tiled2 (Cert.KernelIdeal.KBlocks.cloudA m c) (Cert.KernelIdeal.KBlocks.cloudB m c)),
    Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB⟩ := Chamfer.real_of_pre _ _ (hpre c)
  rw [Cert.ReferenceIdeal.Read.val_main_v22_eq, Cert.ReferenceIdeal.RefValue.result_eq, (hagree c).1, (hagree c).2]
  exact congrArg₂ (fun u v => fun _ => Chamfer.closing u v)
    (Chamfer.tiled1_eq_plain1 _ _ hA hB).symm (Chamfer.tiled2_eq_plain2 _ _ hA hB).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
